-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S400x128, .f32⟩
  | .local _ .vmem, ⟨5, _⟩ => ⟨S400x128, .f32⟩
  | .local _ .vmem, ⟨6, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .i1⟩
  | .hbm, ⟨8, _⟩ => ⟨S_, .f32⟩
  | .hbm, ⟨9, _⟩ => ⟨S10000x128, .f32⟩
  | .hbm, ⟨10, _⟩ => ⟨S10000x128, .f32⟩
  | .hbm, ⟨11, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Pieces.lean ====
/-
  What one grid point leaves behind, as values of the blocks it loaded.

  At the first point the body stores the product of the X block and the W block into the carried buffer, reads
  that buffer back, and stores the rectifier of (adj block times what it read) into the output block. At every
  later point it only reads the carried buffer and stores the rectifier of (adj block times it). Each store covers
  its whole buffer from offset zero, so what a buffer holds afterwards is that store's value, and each load reads
  a whole buffer.
-/
import proofs.«162789_g67619965108616_cont_9to1_m_1309_14_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The offset (0, 0) of every load and store here is the zero offset. -/
theorem hz : (![0, 0] : Fin 2 → Nat) = fun _ => 0 := funext fun a => by fin_cases a <;> rfl

/-- First point, carried buffer: it ends holding the product of the X block and the W block. -/
theorem scratch_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S400x128 .f32) (harg4 : arg4.IsWhole) (arg5 : Memref sig .tc .vmem S10000x128 .f32) (harg5 : arg5.IsWhole) (hc0 : cond0_0 i)
    (x0 : Vec F S400x10000 .f32) (x1 : Vec F S10000x128 .f32) (x2 : Vec F S128x128 .f32) :
    sout0_A_0 c i arg1 harg1 arg2 harg2 arg3 harg3 arg4 harg4 arg5 harg5 hc0 x0 x1 x2 = k0_pay1 x1 x2 := by
  unfold sout0_A_0
  rw [View.read_writes_eq_canon _ _ _ (scover0_A_0 c i arg1 harg1 arg2 harg2 arg3 harg3 arg4 harg4 arg5 harg5 hc0 x0 x1 x2)]
  unfold kernelRun0_A
  dsimp only
  sl_unfold_words
  rw [View.canon_unit_zero hz]
  simp only [View.readAt_eq_ld, harg2.read_unread, harg3.read_unread, View.ld_unit_zero (S := S10000x128) hz,
    View.ld_unit_zero (S := S128x128) hz]

/-- First point, output block: the rectifier of the adj block times that same product, which the body reads back
    from the carried buffer right after storing it. -/
theorem out_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S400x128 .f32) (harg4 : arg4.IsWhole) (arg5 : Memref sig .tc .vmem S10000x128 .f32) (harg5 : arg5.IsWhole) (hc0 : cond0_0 i)
    (x0 : Vec F S400x10000 .f32) (x1 : Vec F S10000x128 .f32) (x2 : Vec F S128x128 .f32) :
    out0_A_3 c i arg1 harg1 arg2 harg2 arg3 harg3 arg4 harg4 arg5 harg5 hc0 x0 x1 x2 = k0_pay2 x0 (k0_pay1 x1 x2) := by
  unfold out0_A_3
  rw [View.read_writes_eq_canon _ _ _ (cover0_A_3 c i arg1 harg1 arg2 harg2 arg3 harg3 arg4 harg4 arg5 harg5 hc0 x0 x1 x2)]
  unfold kernelRun0_A
  dsimp only
  sl_unfold_words
  rw [View.canon_unit_zero hz, View.readCov_unit_zero (S := S10000x128) _ hz]
  simp only [View.readAt_eq_ld, harg1.read_unread, harg2.read_unread, harg3.read_unread,
    View.ld_unit_zero (S := S400x10000) hz, View.ld_unit_zero (S := S10000x128) hz, View.ld_unit_zero (S := S128x128) hz]

/-- A later point, output block: the rectifier of the adj block times whatever the carried buffer held on entry. -/
theorem out_later (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S400x128 .f32) (harg4 : arg4.IsWhole) (arg5 : Memref sig .tc .vmem S10000x128 .f32) (harg5 : arg5.IsWhole) (hc0 : ¬cond0_0 i)
    (x0 : Vec F S400x10000 .f32) (x1 : Vec F S10000x128 .f32) (x2 : Vec F S128x128 .f32) (xs0 : Vec F S10000x128 .f32) :
    out0_B_3 c i arg1 harg1 arg2 harg2 arg3 harg3 arg4 harg4 arg5 harg5 hc0 x0 x1 x2 xs0 = k0_pay2 x0 xs0 := by
  unfold out0_B_3
  rw [View.read_writes_eq_canon _ _ _ (cover0_B_3 c i arg1 harg1 arg2 harg2 arg3 harg3 arg4 harg4 arg5 harg5 hc0 x0 x1 x2 xs0)]
  unfold kernelRun0_B
  dsimp only
  rw [View.canon_unit_zero hz]
  simp only [View.readAt_eq_ld, harg1.read_unread, harg5.read_unread, View.ld_unit_zero (S := S400x10000) hz,
    View.ld_unit_zero (S := S10000x128) hz]

end Cert.KernelIdeal.Pieces

end
-- ==== Proof.Spec.lean ====
/-
  The one function both programs compute, over the extended reals, index by index.

  With X : [10000, 128], A : [10000, 10000] and W : [128, 128]:
    support X W k n = ∑ j, X[k, j] * W[j, n]                      (the projected features, row k, column n)
    G X A W (r, n)  = lrelu (∑ k, A[r, k] * support X W k n)      (row r of A aggregates the projected rows)
  where lrelu a = a when a ≥ 0 and s * a otherwise, s the binary32 number nearest 0.2. Both programs group the
  double sum this way (A times the product X W), so no sum is rearranged and no entry need be finite.
-/
import Idealize.ShloMosaic.PureOps.Ideal
import Idealize.ShloMosaic.Lib.ValueIdx

noncomputable section

namespace Cert.Spec

open Idealize.ShloMosaic Idealize.ShloMosaic.ValueIdx

/-- The leaky rectifier on an extended real: the argument itself where it is at least zero, its product with the
    slope (the word 0x3E4CCCCD read as its exact value) elsewhere. -/
def lrelu (a : EReal) : EReal :=
  Scalar.select (Ideal.cmp .oge a (Ideal.ofBits .f32 0x00000000#32)) a (Ideal.ofBits .f32 0x3E4CCCCD#32 * a)

/-- Entry (k, n) of the product X W: row k of X against column n of W. -/
def support (X : (⟨2, ![10000, 128]⟩ : Shape).Idx → EReal) (W : (⟨2, ![128, 128]⟩ : Shape).Idx → EReal)
    (k : Fin 10000) (n : Fin 128) : EReal :=
  ∑ j : Fin 128, X (ix2 k j) * W (ix2 j n)

/-- Entry (r, n) of the result, by its two coordinates: the rectifier of row r of A against column n of X W. -/
def Gat (X : (⟨2, ![10000, 128]⟩ : Shape).Idx → EReal) (A : (⟨2, ![10000, 10000]⟩ : Shape).Idx → EReal)
    (W : (⟨2, ![128, 128]⟩ : Shape).Idx → EReal) (r : Fin 10000) (n : Fin 128) : EReal :=
  lrelu (∑ k : Fin 10000, A (ix2 r k) * support X W k n)

/-- The result as one array: entry i is `Gat` at i's row and column. -/
def G (X : (⟨2, ![10000, 128]⟩ : Shape).Idx → EReal) (A : (⟨2, ![10000, 10000]⟩ : Shape).Idx → EReal)
    (W : (⟨2, ![128, 128]⟩ : Shape).Idx → EReal) (i : (⟨2, ![10000, 128]⟩ : Shape).Idx) : EReal :=
  Gat X A W (i 0) (i 1)

theorem G_ix2 (X : (⟨2, ![10000, 128]⟩ : Shape).Idx → EReal) (A : (⟨2, ![10000, 10000]⟩ : Shape).Idx → EReal)
    (W : (⟨2, ![128, 128]⟩ : Shape).Idx → EReal) (r : Fin 10000) (n : Fin 128) :
    G X A W (ix2 r n) = Gat X A W r n := rfl

end Cert.Spec

end
-- ==== Proof.Payload.lean ====
/-
  The two values the body stores, read at one entry over the extended reals.

  The first is the matrix product of a [10000, 128] block and a [128, 128] block into a zero accumulator: entry
  (k, n) is ∑ j, x[k, j] * w[j, n]. The second is the rectifier, entry by entry, of the product of a
  [400, 10000] block and a [10000, 128] block into a zero accumulator: entry (p, n) is
  lrelu (∑ k, a[p, k] * s[k, n]). A product into the zero accumulator is the plain sum over the one contracted
  axis; the contraction's index is identified with its single coordinate.
-/
import proofs.«162789_g67619965108616_cont_9to1_m_1309_14_alg».proof.Proof.Gen.KernelIdeal.Skeleton
import proofs.«162789_g67619965108616_cont_9to1_m_1309_14_alg».proof.Proof.Spec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## The [10000, 128] × [128, 128] product: which entries of the operands entry (k, n) multiplies -/

theorem lhsXW_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsXW_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhsXW_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhsXW_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry (k, n) of the product into the zero accumulator: row k of the left block against column n of the right. -/
theorem matmulXW_apply (x1 : FVec Ideal S10000x128 .f32) (x2 : FVec Ideal S128x128 .f32) (k : Fin 10000) (n : Fin 128) :
    FloatOps.matmul dot_S10000x128_S128x128_S10000x128_1_0_0_1_n_n none x1 x2 (constant S10000x128 .f32 0x00000000#32) (ix2 k n)
      = ∑ j : Fin 128, x1 (ix2 k j) * x2 (ix2 j n) := by
  rw [Ideal.matmul_constant_zero_apply, ← Equiv.sum_comp (contrEquiv1 dot_S10000x128_S128x128_S10000x128_1_0_0_1_n_n 128 rfl rfl).symm]
  refine Finset.sum_congr rfl fun j _ => ?_
  have hj := contrEquiv1_symm_val dot_S10000x128_S128x128_S10000x128_1_0_0_1_n_n 128 rfl rfl j
  have el : dot_S10000x128_S128x128_S10000x128_1_0_0_1_n_n.lhsIdx (ix2 k n) ((contrEquiv1 dot_S10000x128_S128x128_S10000x128_1_0_0_1_n_n 128 rfl rfl).symm j) = ix2 k j := funext fun a => Fin.ext (by
    match a with
    | ⟨0, _⟩ => exact lhsXW_0 _ _
    | ⟨1, _⟩ => exact (lhsXW_1 _ _).trans hj)
  have er : dot_S10000x128_S128x128_S10000x128_1_0_0_1_n_n.rhsIdx (ix2 k n) ((contrEquiv1 dot_S10000x128_S128x128_S10000x128_1_0_0_1_n_n 128 rfl rfl).symm j) = ix2 j n := funext fun a => Fin.ext (by
    match a with
    | ⟨0, _⟩ => exact (rhsXW_0 _ _).trans hj
    | ⟨1, _⟩ => exact rhsXW_1 _ _)
  rw [el, er]

/-! ## The [400, 10000] × [10000, 128] product -/

theorem lhsAS_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhsAS_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhsAS_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhsAS_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Entry (p, n) of the product into the zero accumulator: row p of the left block against column n of the right. -/
theorem matmulAS_apply (x0 : FVec Ideal S400x10000 .f32) (x1 : FVec Ideal S10000x128 .f32) (p : Fin 400) (n : Fin 128) :
    FloatOps.matmul dot_S400x10000_S10000x128_S400x128_1_0_0_1_n_n none x0 x1 (constant S400x128 .f32 0x00000000#32) (ix2 p n)
      = ∑ k : Fin 10000, x0 (ix2 p k) * x1 (ix2 k n) := by
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p n) ((contrEquiv1 dot_S400x10000_S10000x128_S400x128_1_0_0_1_n_n 10000 rfl rfl).symm k) = ix2 p k := funext fun a => Fin.ext (by
    match a with
    | ⟨0, _⟩ => exact lhsAS_0 _ _
    | ⟨1, _⟩ => exact (lhsAS_1 _ _).trans hk)
  have er : dot_S400x10000_S10000x128_S400x128_1_0_0_1_n_n.rhsIdx (ix2 p n) ((contrEquiv1 dot_S400x10000_S10000x128_S400x128_1_0_0_1_n_n 10000 rfl rfl).symm k) = ix2 k n := funext fun a => Fin.ext (by
    match a with
    | ⟨0, _⟩ => exact (rhsAS_0 _ _).trans hk
    | ⟨1, _⟩ => exact rhsAS_1 _ _)
  rw [el, er]

/-! ## The two stored values at an entry -/

/-- The value stored into the carried buffer, at (k, n): entry (k, n) of the product of the two blocks. -/
theorem pay1_apply (x1 : FVec Ideal S10000x128 .f32) (x2 : FVec Ideal S128x128 .f32) (k : Fin 10000) (n : Fin 128) :
    k0_pay1 (F := Ideal) x1 x2 (ix2 k n) = Cert.Spec.support x1 x2 k n := by
  unfold k0_pay1
  refine (congrFun (shapeCast_self _ _) _).trans ?_
  exact matmulXW_apply x1 x2 k n

/-- The value stored into the output block, at (p, n): the rectifier of row p of the left block against column n
    of the right one. -/
theorem pay2_apply (x0 : FVec Ideal S400x10000 .f32) (x1 : FVec Ideal S10000x128 .f32) (p : Fin 400) (n : Fin 128) :
    k0_pay2 (F := Ideal) x0 x1 (ix2 p n) = Cert.Spec.lrelu (∑ k : Fin 10000, x0 (ix2 p k) * x1 (ix2 k n)) := by
  have e := matmulAS_apply x0 x1 p n
  unfold k0_pay2 Cert.Spec.lrelu
  simp only [select_apply, cmpf_apply, mulf_apply, broadcast_apply, matmul]
  rw [e]
  rfl

end Cert.KernelIdeal.Payload

end
-- ==== Proof.Blocks.lean ====
/-
  The three input windows' blocks as reads of the argument arrays.

  The grid has 25 points. At point t the A window stages rows 400 t … 400 t + 399 of A with all 10000 columns; the
  X and W windows stage the whole of X and of W at every point. An element of a window's block sits in the array
  at block index times block size plus its coordinate inside the block, axis by axis.
-/
import proofs.«162789_g67619965108616_cont_9to1_m_1309_14_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The block index maps over the grid: the A window and the output window move down one block of rows per point,
    the X and W windows stay on their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three argument arrays on core c. -/
abbrev X (c : Dev nD) : FVec Ideal S10000x128 .f32 := m ((c : Thread nD τ).loc main_arg0)
abbrev A (c : Dev nD) : FVec Ideal S10000x10000 .f32 := m ((c : Thread nD τ).loc main_arg1)
abbrev W (c : Dev nD) : FVec Ideal S128x128 .f32 := m ((c : Thread nD τ).loc main_arg2)

/-- The X window's block at any point is the whole of X. -/
theorem xblk_eq (c : Dev nD) (t : Fin cfg0.N) : (iblk m c 1 t : FVec Ideal S10000x128 .f32) = X m c := by
  obtain ⟨-, -, e2, e3, -, -, -, -⟩ := idx_facts t
  funext j
  unfold iblk
  rw [View.read_apply]
  show V m c main_arg0 _ = m ((c : Thread nD τ).loc main_arg0) j
  refine congrArg (m ((c : Thread nD τ).loc main_arg0)) ?_
  funext a; apply Fin.ext
  match a with
  | ⟨0, _⟩ => show win0_1.index t (0 : Fin 2) * 10000 + 1 * (j 0).val = (j 0).val; omega
  | ⟨1, _⟩ => show win0_1.index t (1 : Fin 2) * 128 + 1 * (j 1).val = (j 1).val; omega

/-- The W window's block at any point is the whole of W. -/
theorem wblk_eq (c : Dev nD) (t : Fin cfg0.N) : (iblk m c 2 t : FVec Ideal S128x128 .f32) = W m c := by
  obtain ⟨-, -, -, -, e4, e5, -, -⟩ := idx_facts t
  funext j
  unfold iblk
  rw [View.read_apply]
  show V m c main_arg2 _ = m ((c : Thread nD τ).loc main_arg2) j
  refine congrArg (m ((c : Thread nD τ).loc main_arg2)) ?_
  funext a; apply Fin.ext
  match a with
  | ⟨0, _⟩ => show win0_2.index t (0 : Fin 2) * 128 + 1 * (j 0).val = (j 0).val; omega
  | ⟨1, _⟩ => show win0_2.index t (1 : Fin 2) * 128 + 1 * (j 1).val = (j 1).val; omega

/-- The A window's block at point t, at row p and column k, is A at row 400 t + p and column k. -/
theorem ablk_apply (c : Dev nD) (t : Fin cfg0.N) (p : Fin 400) (k r : Fin 10000) (hr : r.val = 400 * t.val + p.val) :
    (iblk m c 0 t : FVec Ideal S400x10000 .f32) (ix2 p k) = A m c (ix2 r k) := by
  obtain ⟨e0, e1, -, -, -, -, -, -⟩ := idx_facts t
  unfold iblk
  rw [View.read_apply]
  show V m c main_arg1 _ = m ((c : Thread nD τ).loc main_arg1) (ix2 r k)
  refine congrArg (m ((c : Thread nD τ).loc main_arg1)) ?_
  funext a; apply Fin.ext
  match a with
  | ⟨0, _⟩ => show win0_0.index t (0 : Fin 2) * 400 + 1 * p.val = r.val; omega
  | ⟨1, _⟩ => show win0_0.index t (1 : Fin 2) * 10000 + 1 * k.val = k.val; omega

end Cert.KernelIdeal.Blocks

end
-- ==== Proof.Sweep.lean ====
/-
  The carried buffer through the grid, what each point writes back, and the output array after the run.

  The grid has 25 points. Point t stages rows 400 t … 400 t + 399 of A (all 10000 columns), the whole of X and the
  whole of W, and writes back rows 400 t … 400 t + 399 of the output. The carried buffer is filled with the product
  X W at point 0 and is only read afterwards, so after every point it holds X W (induction on the point). Hence
  the block point t writes back has, at row p and column n, the rectifier of row 400 t + p of A against column n of
  X W: block t of the one function G. The 25 blocks tile the output's rows (row r lies in block r / 400), so the
  output array ends holding G.
-/
import proofs.«162789_g67619965108616_cont_9to1_m_1309_14_alg».proof.Proof.Gen.KernelIdeal.Value
import proofs.«162789_g67619965108616_cont_9to1_m_1309_14_alg».proof.Proof.Pieces
import proofs.«162789_g67619965108616_cont_9to1_m_1309_14_alg».proof.Proof.Payload
import proofs.«162789_g67619965108616_cont_9to1_m_1309_14_alg».proof.Proof.Blocks

noncomputable section

namespace Cert.KernelIdeal.Sweep

open Cert.KernelIdeal Cert.KernelIdeal.Gen Idealize.ShloMosaic Idealize.ShloMosaic.TcCoe Idealize.ShloMosaic.ValueIdx Idealize.SL.Sem
open Idealize.ShloMosaic.Pipeline (Dat)
open Cert.KernelIdeal.Blocks

variable (m : (ℓ : Loc nD τ sig) → Buf (Elt Ideal) ℓ) (ρ : Dev nD → PrngReg)

/-- The product X W as the body stores it. -/
abbrev sup (c : Dev nD) : FVec Ideal S10000x128 .f32 := k0_pay1 (F := Ideal) (X m c) (W m c)

/-- At the first point the carried buffer is filled with X W: the blocks the body multiplies there are the whole of
    X and the whole of W. -/
theorem scratch_first_at (c : Dev nD) (t : Fin cfg0.N) (h0 : t.val % 25 = 0) : (outsAt0 m c t.val t.isLt).2 = sup m c := by
  rw [outsAt0_A m c t h0]
  dsimp only
  refine (Pieces.scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)).trans ?_
  exact congrArg₂ (k0_pay1 (F := Ideal)) (xblk_eq m c t) (wblk_eq m c t)

/-- After every point the carried buffer holds X W: point 0 stores it, the later points leave it alone. -/
theorem scratch_at (c : Dev nD) : ∀ (n : ℕ) (h : n < cfg0.N), (outsAt0 m c n h).2 = sup m c
  | 0, h => scratch_first_at m c ⟨0, h⟩ rfl
  | n + 1, h => by
    have hN : cfg0.N = 25 := N_0
    have hB : ¬(⟨n + 1, h⟩ : Fin cfg0.N).val % 25 = 0 := by dsimp only; omega
    rw [outsAt0_B m c ⟨n + 1, h⟩ hB]
    show (outsAt0 m c n _).2 = sup m c
    exact scratch_at c n _

/-- The output block after point t: the rectifier of (the A block at t) times X W. -/
theorem out_at (c : Dev nD) (t : Fin cfg0.N) :
    (outsAt0 m c t.val t.isLt).1 = k0_pay2 (F := Ideal) (iblk m c 0 t) (sup m c) := by
  by_cases h0 : t.val % 25 = 0
  · rw [outsAt0_A m c t h0]
    dsimp only
    refine (Pieces.out_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)).trans ?_
    exact congrArg (k0_pay2 (F := Ideal) (iblk m c 0 t)) (congrArg₂ (k0_pay1 (F := Ideal)) (xblk_eq m c t) (wblk_eq m c t))
  · rw [outsAt0_B m c t h0]
    dsimp only
    refine (Pieces.out_later (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2).trans ?_
    exact congrArg (k0_pay2 (F := Ideal) (iblk m c 0 t)) (scratch_at m c (t.val - 1) (Nat.lt_of_le_of_lt (Nat.sub_le _ _) t.isLt))

/-- One entry of a written-back block against the same entry of G. The block is b's: its A rows are rows
    400 b + p of A (`hx0`), and the entry (p, n) of the block is entry (400 b + p, n) of the array. -/
theorem entry (x0 : FVec Ideal S400x10000 .f32) (Xv : FVec Ideal S10000x128 .f32) (Av : FVec Ideal S10000x10000 .f32)
    (Wv : FVec Ideal S128x128 .f32) (b : ℕ)
    (hx0 : ∀ (p : Fin 400) (k r : Fin 10000), r.val = 400 * b + p.val → x0 (ix2 p k) = Av (ix2 r k))
    (y : S400x128.Idx) (i : S10000x128.Idx) (hi0 : (i 0).val = 400 * b + (y 0).val) (hi1 : (i 1).val = (y 1).val) :
    k0_pay2 (F := Ideal) x0 (k0_pay1 (F := Ideal) Xv Wv) y = Cert.Spec.G Xv Av Wv i := by
  obtain ⟨p, n, rfl⟩ : ∃ (p : Fin 400) (n : Fin 128), y = ix2 p n := ⟨y 0, y 1, eq_ix2 y⟩
  obtain ⟨r, n', rfl⟩ : ∃ (r : Fin 10000) (n' : Fin 128), i = ix2 r n' := ⟨i 0, i 1, eq_ix2 i⟩
  obtain rfl : n' = n := Fin.ext hi1
  rw [Payload.pay2_apply, Cert.Spec.G_ix2]
  unfold Cert.Spec.Gat
  refine congrArg Cert.Spec.lrelu (Finset.sum_congr rfl fun k _ => ?_)
  rw [hx0 p k r hi0, Payload.pay1_apply]

/-- What point t writes back is block t of G of the three argument arrays. -/
theorem flushed_eq (c : Dev nD) (t : Fin cfg0.N) :
    (dats m 0 c).flushed 3 t = ((cfg0.win 3).blk t).view.read (Elt Ideal) (Cert.Spec.G (X m c) (A m c) (W m c)) := by
  obtain ⟨-, -, -, -, -, -, e6, e7⟩ := idx_facts t
  rw [Cert.KernelIdeal.Value.flushed3, out_at]
  funext y
  rw [View.read_apply]
  show k0_pay2 (F := Ideal) (iblk m c 0 t) (sup m c) y = Cert.Spec.G (X m c) (A m c) (W m c) (((cfg0.win 3).blk t).view.emb y)
  refine entry (iblk m c 0 t) (X m c) (A m c) (W m c) t.val (fun p k r hr => ablk_apply m c t p k r hr) y _ ?_ ?_
  · show win0_3.index t (0 : Fin 2) * 400 + 1 * (y 0).val = 400 * t.val + (y 0).val; omega
  · show win0_3.index t (1 : Fin 2) * 128 + 1 * (y 1).val = (y 1).val; omega

/-- An index of the output array lies in point t's block iff each coordinate lies in the block's range. -/
theorem mem_blk (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v0).slice (win0_3.rect t)).set ↔ _
  rw [View.set_slice_whole, Rect.mem_set_unit]
  exact Iff.rfl

/-- Every index of the output array lies in some point's block: row r in block r / 400. -/
theorem cover (i : S10000x128.Idx) : ∃ t : Fin cfg0.N, (cfg0.win 3).flush t = true ∧ i ∈ ((cfg0.win 3).blk t).view.set := by
  have hN : cfg0.N = 25 := N_0
  have hi0 : (i 0).val < 10000 := (i 0).isLt
  have hi1 : (i 1).val < 128 := (i 1).isLt
  obtain ⟨t, ht⟩ : ∃ t : Fin cfg0.N, t.val = (i 0).val / 400 := ⟨⟨(i 0).val / 400, by rw [hN]; omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 400 ≤ (i 0).val ∧ (i 0).val < win0_3.index t (0 : Fin 2) * 400 + 400; omega
  | ⟨1, _⟩ => show win0_3.index t (1 : Fin 2) * 128 ≤ (i 1).val ∧ (i 1).val < win0_3.index t (1 : Fin 2) * 128 + 128; omega

/-- The output array after the run is G of the three argument arrays. -/
theorem final (c : Dev nD) : (dats m 0 c).arrAt 3 cfg0.N = Cert.Spec.G (X m c) (A m c) (W m c) :=
  (dats m 0 c).arrAt_eq_of_cover 3 (Cert.Spec.G (X m c) (A m c) (W m c)) (fun t _ => flushed_eq m c t) cover

/-- The run: every weakly fair execution ends with the result array at G of the arguments and the arguments unchanged. -/
theorem run : θ_run defs (onTc (τ := τ) (main (F := Ideal))) ⟨m, fun _ => 0, ρ⟩ fun r => ∀ c : Dev nD,
      r.2.mem ((c : Thread nD τ).loc main_v0) = Cert.Spec.G (X m c) (A m c) (W m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Sweep

end
-- ==== Proof.RefIsSpec.lean ====
/-
  The reference's result, read one operation at a time, is the function G of Spec: its second product's entry
  (r, n) sums A[r, k] against entry (k, n) of its first product, and the comparison, the scaling and the select
  act entry by entry.
-/
import proofs.«162789_g67619965108616_cont_9to1_m_1309_14_alg».proof.Proof.Gen.ReferenceIdeal.Read
import proofs.«162789_g67619965108616_cont_9to1_m_1309_14_alg».proof.Proof.Spec

noncomputable section

namespace Cert.RefSpec

open Cert.ReferenceIdeal Cert.ReferenceIdeal.Read Idealize.ShloMosaic Idealize.ShloMosaic.ValueIdx

/-- The second product's entry (r, n) reads A at (r, k) … -/
theorem lidx1 (r : Fin 10000) (n : Fin 128) (k : Fin 10000) : lidx_main_v1 (ix2 r n) k = ix2 r k :=
  funext fun a => by match a with | ⟨0, _⟩ => rfl | ⟨1, _⟩ => rfl
/-- … and the first product at (k, n); -/
theorem ridx1 (r : Fin 10000) (n : Fin 128) (k : Fin 10000) : ridx_main_v1 (ix2 r n) k = ix2 k n :=
  funext fun a => by match a with | ⟨0, _⟩ => rfl | ⟨1, _⟩ => rfl
/-- the first product's entry (k, n) reads X at (k, j) … -/
theorem lidx0 (k : Fin 10000) (n : Fin 128) (j : Fin 128) : lidx_main_v0 (ix2 k n) j = ix2 k j :=
  funext fun a => by match a with | ⟨0, _⟩ => rfl | ⟨1, _⟩ => rfl
/-- … and W at (j, n). -/
theorem ridx0 (k : Fin 10000) (n : Fin 128) (j : Fin 128) : ridx_main_v0 (ix2 k n) j = ix2 j n :=
  funext fun a => by match a with | ⟨0, _⟩ => rfl | ⟨1, _⟩ => rfl

/-- The reference's last stage is G of its three arguments. -/
theorem val_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    val_main_v6 (F := Ideal) x0 x1 x2 = Cert.Spec.G x0 x1 x2 := by
  funext i
  obtain ⟨r, n, rfl⟩ : ∃ (r : Fin 10000) (n : Fin 128), i = ix2 r n := ⟨i 0, i 1, eq_ix2 i⟩
  rw [val_main_v6_apply, val_main_v3_apply, val_main_v5_apply, val_main_v4_apply, val_main_cst_0_apply,
    val_main_v2_apply, val_main_cst_apply, val_main_v1_apply, Cert.Spec.G_ix2]
  simp only [lidx1, ridx1, val_main_v0_apply, lidx0, ridx0]
  rfl

end Cert.RefSpec

end
-- ==== Proof.lean ====
/-
  Both programs compute leaky_relu (A · (X · W)) for X : [10000, 128], A : [10000, 10000], W : [128, 128]:
    out[r, n] = lrelu (∑ k, A[r, k] * (∑ j, X[k, j] * W[j, n])),   lrelu a = a if a ≥ 0, else s * a,
  with s the binary32 number nearest 0.2, the same word in both. Over the extended reals the two agree entry by
  entry with no rearrangement of any sum: the kernel forms X · W once, at the first of its 25 grid points, keeps it
  in a buffer it carries across the grid, and at point t multiplies rows 400 t … 400 t + 399 of A against it; the
  reference forms X · W and then A · (X · W). A matrix product into a zero accumulator and the reference's
  dot_general are the same plain sum over the contracted axis, and the comparison, the scaling by s and the select
  act entry by entry on both sides. No step needs an entry to be finite, so the precondition is never opened.

  The modules: Spec (the function G above), RefIsSpec (the reference's last stage is G), Blocks (each window's block as a read of its argument array), Pieces (what one grid point
  leaves in the carried buffer and in the output block, as values of the blocks it loaded), Payload (those values
  at one entry), Sweep (the carried buffer holds X · W after every point; each point writes back block t of G; the
  blocks tile the output; the run). The ideal pass rewrote nothing, so the preservation claim is `True`.
-/
import proofs.«162789_g67619965108616_cont_9to1_m_1309_14_alg».proof.Defs
import proofs.«162789_g67619965108616_cont_9to1_m_1309_14_alg».proof.Proof.Gen.Kernel
import proofs.«162789_g67619965108616_cont_9to1_m_1309_14_alg».proof.Proof.Gen.Kernel.Skeleton
import proofs.«162789_g67619965108616_cont_9to1_m_1309_14_alg».proof.Proof.Gen.Kernel.Launch
import proofs.«162789_g67619965108616_cont_9to1_m_1309_14_alg».proof.Proof.Gen.Kernel.Points
import proofs.«162789_g67619965108616_cont_9to1_m_1309_14_alg».proof.Proof.Gen.Kernel.Frame
import proofs.«162789_g67619965108616_cont_9to1_m_1309_14_alg».proof.Proof.Gen.KernelIdeal
import proofs.«162789_g67619965108616_cont_9to1_m_1309_14_alg».proof.Proof.Gen.KernelIdeal.Skeleton
import proofs.«162789_g67619965108616_cont_9to1_m_1309_14_alg».proof.Proof.Gen.KernelIdeal.Launch
import proofs.«162789_g67619965108616_cont_9to1_m_1309_14_alg».proof.Proof.Gen.KernelIdeal.Points
import proofs.«162789_g67619965108616_cont_9to1_m_1309_14_alg».proof.Proof.Gen.KernelIdeal.Frame
import proofs.«162789_g67619965108616_cont_9to1_m_1309_14_alg».proof.Proof.Gen.ReferenceIdeal
import proofs.«162789_g67619965108616_cont_9to1_m_1309_14_alg».proof.Proof.Gen.Pre_finite_inputs
import proofs.«162789_g67619965108616_cont_9to1_m_1309_14_alg».proof.Proof.Gen.KernelIdeal.Value
import proofs.«162789_g67619965108616_cont_9to1_m_1309_14_alg».proof.Proof.Gen.ReferenceIdeal.Run
import proofs.«162789_g67619965108616_cont_9to1_m_1309_14_alg».proof.Proof.Gen.ReferenceIdeal.Read
import proofs.«162789_g67619965108616_cont_9to1_m_1309_14_alg».proof.Proof.Sweep
import proofs.«162789_g67619965108616_cont_9to1_m_1309_14_alg».proof.Proof.RefIsSpec
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories that agree on X, A and W, the kernel's output array ends at G of them (Sweep) and the reference's
    result at its last stage of them, which is the same G (RefIsSpec). -/
theorem algebraic : Cert.algebraic_KernelIdeal_ReferenceIdeal := by
  intro m ρ m' ρ' _ hagree
  refine ⟨fun c => Cert.Spec.G (Cert.KernelIdeal.Blocks.X m c) (Cert.KernelIdeal.Blocks.A m c) (Cert.KernelIdeal.Blocks.W m c),
    Cert.KernelIdeal.Sweep.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.RefSpec.val_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
